-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  broadcasts_S1024x1_S1024x4096 : S1024x1.Broadcasts S1024x4096
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, index by index, on the extended reals.

  Each row of x is divided by (its Euclidean norm plus a constant); the result is multiplied into the weight
  matrix along the weight's second axis (so entry (r, c) sums over k the products of the scaled x at (r, k) and
  the weight at (c, k)); the bias at c is added; a negative result is replaced by zero. The square root, the
  quotient and the maximum are the extended reals' own, so the function is total and needs no side condition.
-/
import Idealize.ShloMosaic.PureOps.Ideal
import Idealize.ShloMosaic.Lib.ValueIdx

noncomputable section

namespace Cert.NormLinear

open Idealize.ShloMosaic Idealize.ShloMosaic.ValueIdx

/-- The shapes of x (and of the result), of the weight and of the bias. -/
abbrev SX : Shape := ⟨2, ![8192, 4096]⟩
abbrev SW : Shape := ⟨2, ![4096, 4096]⟩
abbrev SB : Shape := ⟨1, ![4096]⟩

/-- The constant added to a row's norm: one f32 word, the same in both programs, so its value is never needed. -/
abbrev eps : EReal := Ideal.ofBits .f32 0x38D1B717#32

/-- The sum of the squares of row r of x. -/
def sumSq (x : SX.Idx → EReal) (r : Fin 8192) : EReal := ∑ k : Fin 4096, x (ix2 r k) * x (ix2 r k)

/-- Entry (r, k) of x over (the square root of row r's sum of squares, plus the constant). -/
def dir (x : SX.Idx → EReal) (r : Fin 8192) (k : Fin 4096) : EReal :=
  Ideal.div (x (ix2 r k)) (Ideal.sqrt (sumSq x r) + eps)

/-- Entry i = (r, c) of the result: the scaled row r against row c of the weight, plus the bias at c, clamped at zero. -/
def out (x : SX.Idx → EReal) (w : SW.Idx → EReal) (b : SB.Idx → EReal) (i : SX.Idx) : EReal :=
  max ((∑ k : Fin 4096, dir x (i 0) k * w (ix2 (i 1) k)) + b (ix1 (i 1))) 0

end Cert.NormLinear

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.PayloadAt.lean ====
/-
  The kernel body's two stored values, read at an index, on the extended reals.

  The first is what the body keeps for a block of 1024 rows of x: at (p, k) the entry over (the square root of
  row p's sum of squares, plus the constant) -- the row sum is a lane reduction into a zero accumulator, spread
  back over the row as a column. The second is what it writes out for a block of 1024 rows and 512 columns: at
  (p, q) the sum over k of the kept value at (p, k) times the weight block at (q, k) (a matrix product into a
  zero accumulator, contracting the second axis of both operands), plus the bias block's one row at q, clamped at
  zero. Narrowing to a shorter float format is the identity on the extended reals and drops out.
-/
import proofs.«127630_j14456859918385_2_alg».proof.Proof.Gen.KernelIdeal.Skeleton
import proofs.«127630_j14456859918385_2_alg».proof.Proof.Spec
import proofs.«127630_j14456859918385_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Idealize.ShloMosaic.Pipeline

/-- The lane reduction of a block, into the zero accumulator, at row p: the sum of the row. -/
theorem lane_sum (src : FVec Ideal S1024x4096 .f32) (p : Fin 1024) :
    multiReduction (F := Ideal) .add [1] S1024 src 0x00000000#32 reduces_S1024x4096_S1024 (.inl rfl) rfl (ix1 p)
      = ∑ k : Fin 4096, src (ix2 p k) := by
  refine (Ideal.multiReduction_add_single src 0x00000000#32 reduces_S1024x4096_S1024 (.inl rfl) rfl (ix1 p)).trans ?_
  refine Finset.sum_congr rfl fun k _ => congrArg src ?_
  exact funext fun a => Fin.ext (by match a with | ⟨0, _⟩ => rfl | ⟨1, _⟩ => rfl)

/-- The kept value at (p, k): the block's entry over (the square root of row p's sum of squares, plus the constant). -/
theorem kept_apply (x0 : Vec Ideal S1024x4096 .f32) (p : Fin 1024) (k : Fin 4096) :
    k0_pay1 (F := Ideal) x0 (ix2 p k)
      = Ideal.div (x0 (ix2 p k)) (Ideal.sqrt (∑ k' : Fin 4096, x0 (ix2 p k') * x0 (ix2 p k')) + NormLinear.eps) := by
  unfold k0_pay1
  dsimp only
  refine (congrFun (shapeCast_self _ _) (ix2 p k)).trans ?_
  show Ideal.div (x0 (ix2 p k)) (broadcastTo S1024x4096 _ broadcasts_S1024x1_S1024x4096 (ix2 p k)) = _
  refine congrArg (Ideal.div (x0 (ix2 p k))) ?_
  refine (Keepdims.broadcastTo_a1_ab_apply _ broadcasts_S1024x1_S1024x4096 p k).trans ?_
  show Ideal.sqrt (shapeCast S1024x1 _ shapeCasts_S1024_S1024x1 (ix2 p (0 : Fin 1))) + NormLinear.eps = _
  refine congrArg (fun z => Ideal.sqrt z + NormLinear.eps) ?_
  refine (Keepdims.shapeCast_a_a1_apply _ shapeCasts_S1024_S1024x1 p 0).trans ?_
  exact lane_sum (mulf x0 x0) p

/-! ## The written value -/

theorem lhs_row (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_contr (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_row (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_contr (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The body's matrix product into the zero accumulator, at (p, q): the sum over k of the left operand at (p, k) times
    the right operand at (q, k) -- both operands are contracted along their second axis. -/
theorem product_apply (l : FVec Ideal S1024x4096 .bf16) (r : FVec Ideal S512x4096 .bf16) (p : Fin 1024) (q : Fin 512) :
    matmul (F := Ideal) dot_S1024x4096_S512x4096_S1024x512_1_1_0_0_n_n none l r (constant S1024x512 .f32 0x00000000#32) (ix2 p q)
      = ∑ k : Fin 4096, l (ix2 p k) * r (ix2 q k) := by
  simp only [matmul]
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx (ix2 p q) ((ValueIdx.contrEquiv1 dot_S1024x4096_S512x4096_S1024x512_1_1_0_0_n_n 4096 rfl rfl).symm k) = ix2 p k := funext fun a => Fin.ext (by
    match a with
    | ⟨0, _⟩ => exact lhs_row _ _
    | ⟨1, _⟩ => exact (lhs_contr _ _).trans hk)
  have er : dot_S1024x4096_S512x4096_S1024x512_1_1_0_0_n_n.rhsIdx (ix2 p q) ((ValueIdx.contrEquiv1 dot_S1024x4096_S512x4096_S1024x512_1_1_0_0_n_n 4096 rfl rfl).symm k) = ix2 q k := funext fun a => Fin.ext (by
    match a with
    | ⟨0, _⟩ => exact rhs_row _ _
    | ⟨1, _⟩ => exact (rhs_contr _ _).trans hk)
  rw [el, er]

/-- The written value at (p, q): the kept block against the weight block, plus the bias block's row at q, clamped at zero. -/
theorem written_apply (xd : Vec Ideal S1024x4096 .bf16) (w : Vec Ideal S512x4096 .bf16) (bb : Vec Ideal S1x512 .f32)
    (p : Fin 1024) (q : Fin 512) :
    k0_pay2 (F := Ideal) xd w bb (ix2 p q)
      = max ((∑ k : Fin 4096, xd (ix2 p k) * w (ix2 q k)) + bb (ix2 (0 : Fin 1) q)) 0 := by
  unfold k0_pay2
  have ew : shapeCast S512x4096 w shapeCasts_S512x4096_S512x4096 = w := shapeCast_self _ _
  have eb : shapeCast S1x512 bb shapeCasts_S1x512_S1x512 = bb := shapeCast_self _ _
  rw [ew, eb]
  show max (matmul (F := Ideal) dot_S1024x4096_S512x4096_S1024x512_1_1_0_0_n_n none xd w (constant S1024x512 .f32 0x00000000#32) (ix2 p q)
      + broadcastTo S1024x512 bb broadcasts_S1x512_S1024x512 (ix2 p q)) (Ideal.ofBits .f32 0x00000000#32) = _
  rw [product_apply xd w p q, broadcastTo_1b_ab_apply bb broadcasts_S1x512_S1024x512 p q, Ideal.ofBits_zero_f32]

end Cert.KernelIdeal.Payload

end
-- ==== Proof.Pieces.lean ====
/-
  What one run of the kernel body leaves behind, as values.

  At a grid point whose second coordinate is zero the body recomputes the kept block from the block of x,
  stores it, reads it back and writes out the product; elsewhere it only reads the kept block that the point
  before left and writes out the product. So the kept block after such a first point is the first stored value of
  the block of x, the written block there is the second stored value of that, and at the other points the written
  block is the second stored value of whatever was kept. Each store covers its whole buffer and each load reads a
  whole buffer, so reading the stores back gives the stored value itself.
-/
import proofs.«127630_j14456859918385_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- At a first point the kept block is the first stored value of the block of x. -/
theorem kept_first (c : Dev nD) (i : grid0.Coords) (a2 : Memref sig .tc .vmem S1024x4096 .f32) (h2 : a2.IsWhole) (a3 : Memref sig .tc .vmem S512x4096 .bf16) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : cond0_0 i)
    (x0 : Vec F S1024x4096 .f32) (x1 : Vec F S512x4096 .bf16) (x2 : Vec F S1x512 .f32) :
    sout0_A_0 c i a2 h2 a3 h3 a4 h4 a5 h5 a6 h6 hc x0 x1 x2 = k0_pay1 x0 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, View.ld_unit_zero (S := S1024x4096) hz]

/-- At a first point the written block is the second stored value of the block just kept (read back whole), the weight
    block and the bias block. -/
theorem written_first (c : Dev nD) (i : grid0.Coords) (a2 : Memref sig .tc .vmem S1024x4096 .f32) (h2 : a2.IsWhole) (a3 : Memref sig .tc .vmem S512x4096 .bf16) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : cond0_0 i)
    (x0 : Vec F S1024x4096 .f32) (x1 : Vec F S512x4096 .bf16) (x2 : Vec F S1x512 .f32) :
    out0_A_3 c i a2 h2 a3 h3 a4 h4 a5 h5 a6 h6 hc x0 x1 x2 = k0_pay2 (k0_pay1 x0) x1 x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x4096) _ hz]
  simp only [View.readAt_eq_ld, h2.read_unread, h3.read_unread, h4.read_unread, View.ld_unit_zero (S := S1024x4096) hz,
    View.ld_unit_zero (S := S512x4096) hz, View.ld_unit_zero (S := S1x512) hz]

/-- At any other point the written block is the second stored value of the block kept before, the weight block and the
    bias block. -/
theorem written_later (c : Dev nD) (i : grid0.Coords) (a2 : Memref sig .tc .vmem S1024x4096 .f32) (h2 : a2.IsWhole) (a3 : Memref sig .tc .vmem S512x4096 .bf16) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : ¬cond0_0 i)
    (x0 : Vec F S1024x4096 .f32) (x1 : Vec F S512x4096 .bf16) (x2 : Vec F S1x512 .f32) (xs : Vec F S1024x4096 .bf16) :
    out0_B_3 c i a2 h2 a3 h3 a4 h4 a5 h5 a6 h6 hc x0 x1 x2 xs = k0_pay2 xs x1 x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h6.read_unread, h3.read_unread, h4.read_unread, View.ld_unit_zero (S := S1024x4096) hz,
    View.ld_unit_zero (S := S512x4096) hz, View.ld_unit_zero (S := S1x512) hz]

end Cert.KernelIdeal.Pieces

end
-- ==== Proof.Blocks.lean ====
/-
  Where the blocks sit in the arrays.

  The 64 grid points are pairs (t / 8, t % 8). At point t the block of x is rows 1024 (t / 8) .. of x, all 4096
  columns; the weight block is rows 512 (t % 8) .. of the weight, all columns; the bias block is entries
  512 (t % 8) .. of the bias, as one row; the output block is rows 1024 (t / 8) .. and columns 512 (t % 8) .. of the
  result. Before the grid starts the weight is narrowed to a shorter float format, which on the extended reals is
  the identity, and the bias is recast as a one-row matrix; x is used as launched.
-/
import proofs.«127630_j14456859918385_2_alg».proof.Proof.Gen.KernelIdeal.Frame
import proofs.«127630_j14456859918385_2_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

theorem lt64 (t : Fin cfg0.N) : t.val < 64 := lt_of_lt_of_eq t.isLt (show cfg0.N = 64 from N_0)

/-- The row of the arrays that row p of point t's blocks of x and of the result is. -/
def row (t : Fin cfg0.N) (p : Fin 1024) : Fin 8192 :=
  ⟨1024 * (t.val / 8) + p.val, by have := lt64 t; have := p.isLt; omega⟩

/-- The row of the weight, the entry of the bias and the column of the result that index q of point t's blocks is. -/
def col (t : Fin cfg0.N) (q : Fin 512) : Fin 4096 :=
  ⟨512 * (t.val % 8) + q.val, by have := q.isLt; omega⟩

/-- The printed index maps, decided once over the 64 points. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- When the grid starts, an entry of the weight's array is the launched weight's entry: the format change is the
    identity on the extended reals. -/
theorem weight_entry (c : Dev nD) (i : S4096x4096.Idx) :
    V m c main_v0 i = m ((c : Thread nD τ).loc main_arg1) i := by
  dsimp only [Gen.V, Gen.hostOps0]
  after_results
  rfl

/-- When the grid starts, entry (0, j) of the bias's one-row array is the launched bias's entry j. -/
theorem bias_entry (c : Dev nD) (j : Fin 4096) :
    V m c main_v1 (ix2 (0 : Fin 1) j) = m ((c : Thread nD τ).loc main_arg2) (ix1 j) := by
  dsimp only [Gen.V, Gen.hostOps0]
  after_results
  exact shapeCast_a_1a_apply _ shapeCasts_S4096_S1x4096 (0 : Fin 1) j

/-- The block of x at point t, at (p, k): x at (row t p, k). -/
theorem x_block (c : Dev nD) (t : Fin cfg0.N) (p : Fin 1024) (k : Fin 4096) :
    (iblk m c 0 t : Vec Ideal S1024x4096 .f32) (ix2 p k) = m ((c : Thread nD τ).loc main_arg0) (ix2 (row t p) k) := by
  obtain ⟨e0, e1, -⟩ := idx_facts t
  unfold iblk
  rw [View.read_apply]
  show V m c main_arg0 _ = _
  rw [V_main_arg0 m c]
  refine congrArg (m ((c : Thread nD τ).loc main_arg0)) ?_
  funext a
  apply Fin.ext
  match a with
  | ⟨0, _⟩ => show win0_0.index t (0 : Fin 2) * 1024 + 1 * p.val = 1024 * (t.val / 8) + p.val; rw [e0]; omega
  | ⟨1, _⟩ => show win0_0.index t (1 : Fin 2) * 4096 + 1 * k.val = k.val; rw [e1]; omega

/-- The weight block at point t, at (q, k): the weight at (col t q, k). -/
theorem w_block (c : Dev nD) (t : Fin cfg0.N) (q : Fin 512) (k : Fin 4096) :
    (iblk m c 1 t : Vec Ideal S512x4096 .bf16) (ix2 q k) = m ((c : Thread nD τ).loc main_arg1) (ix2 (col t q) k) := by
  obtain ⟨-, -, e0, e1, -⟩ := idx_facts t
  unfold iblk
  rw [View.read_apply]
  show V m c main_v0 _ = _
  rw [weight_entry m c]
  refine congrArg (m ((c : Thread nD τ).loc main_arg1)) ?_
  funext a
  apply Fin.ext
  match a with
  | ⟨0, _⟩ => show win0_1.index t (0 : Fin 2) * 512 + 1 * q.val = 512 * (t.val % 8) + q.val; rw [e0]; omega
  | ⟨1, _⟩ => show win0_1.index t (1 : Fin 2) * 4096 + 1 * k.val = k.val; rw [e1]; omega

/-- The bias block at point t, at (0, q): the bias at col t q. -/
theorem b_block (c : Dev nD) (t : Fin cfg0.N) (q : Fin 512) :
    (iblk m c 2 t : Vec Ideal S1x512 .f32) (ix2 (0 : Fin 1) q) = m ((c : Thread nD τ).loc main_arg2) (ix1 (col t q)) := by
  obtain ⟨-, -, -, -, e0, e1, -⟩ := idx_facts t
  unfold iblk
  rw [View.read_apply]
  have hi : ((cfg0.win 2).blk t).view.emb (ix2 (0 : Fin 1) q) = ix2 (0 : Fin 1) (col t q) := by
    funext a
    apply Fin.ext
    match a with
    | ⟨0, _⟩ => show win0_2.index t (0 : Fin 2) * 1 + 1 * 0 = 0; rw [e0]
    | ⟨1, _⟩ => show win0_2.index t (1 : Fin 2) * 512 + 1 * q.val = 512 * (t.val % 8) + q.val; rw [e1]; omega
  show V m c main_v1 (((cfg0.win 2).blk t).view.emb (ix2 (0 : Fin 1) q)) = _
  rw [hi, bias_entry m c]

end Cert.KernelIdeal.Blocks

end
-- ==== Proof.Whole.lean ====
/-
  The kernel's result array is the specified function of its three arguments.

  The block of scaled rows that the body keeps is recomputed at the points whose second coordinate is zero and
  only read at the others; since the block of x does not move while the second coordinate runs, after every point
  the kept block is the scaling of the rows 1024 (t / 8) .. of x (induction on the point). So what point t writes out is,
  at (p, q), the specified function at row 1024 (t / 8) + p and column 512 (t % 8) + q: the block of the specified
  function that the output window's block at t selects. Every index of the result lies in the block of the point
  8 (row / 1024) + column / 512, so the blocks fill the array.
-/
import proofs.«127630_j14456859918385_2_alg».proof.Proof.Gen.KernelIdeal.Value
import proofs.«127630_j14456859918385_2_alg».proof.Proof.Spec
import proofs.«127630_j14456859918385_2_alg».proof.Proof.PayloadAt
import proofs.«127630_j14456859918385_2_alg».proof.Proof.Pieces
import proofs.«127630_j14456859918385_2_alg».proof.Proof.Blocks
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks (row col lt64 idx_facts)

variable (m : (ℓ : Loc nD τ sig) → Buf (Elt Ideal) ℓ) (ρ : Dev nD → PrngReg)

/-- The first stored value of the block of x at point t, at (p, k): the scaling of row (row t p) of x, at k. -/
theorem kept_block (c : Dev nD) (t : Fin cfg0.N) (p : Fin 1024) (k : Fin 4096) :
    k0_pay1 (F := Ideal) (iblk m c 0 t) (ix2 p k) = NormLinear.dir (m ((c : Thread nD τ).loc main_arg0)) (row t p) k := by
  refine (Payload.kept_apply (iblk m c 0 t) p k).trans ?_
  simp only [NormLinear.dir, NormLinear.sumSq, Blocks.x_block m c t]

/-- While the second grid coordinate is not zero, the point before has the same rows of x. -/
theorem row_pred (n : ℕ) (h : n + 1 < cfg0.N) (h0 : ¬(n + 1) % 8 = 0) (p : Fin 1024) :
    row ⟨n, Nat.lt_of_succ_lt h⟩ p = row ⟨n + 1, h⟩ p := by
  apply Fin.ext
  show 1024 * (n / 8) + p.val = 1024 * ((n + 1) / 8) + p.val
  omega

/-- THE KEPT BLOCK after point n is the scaling of that point's rows of x: recomputed where the second coordinate is
    zero, carried over unchanged elsewhere. -/
theorem kept_eq (c : Dev nD) : ∀ (n : ℕ) (h : n < cfg0.N) (p : Fin 1024) (k : Fin 4096),
    (outsAt0 m c n h).2 (ix2 p k) = NormLinear.dir (m ((c : Thread nD τ).loc main_arg0)) (row ⟨n, h⟩ p) k := by
  intro n
  induction n with
  | zero =>
    intro h p k
    rw [outsAt0_A m c ⟨0, h⟩ rfl]
    dsimp only
    refine (congrFun (Pieces.kept_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl)
      (iblk m c 0 ⟨0, h⟩) (iblk m c 1 ⟨0, h⟩) (iblk m c 2 ⟨0, h⟩)) (ix2 p k)).trans ?_
    exact kept_block m c ⟨0, h⟩ p k
  | succ n ih =>
    intro h p k
    by_cases h0 : (n + 1) % 8 = 0
    · rw [outsAt0_A m c ⟨n + 1, h⟩ h0]
      dsimp only
      refine (congrFun (Pieces.kept_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0)
        (iblk m c 0 ⟨n + 1, h⟩) (iblk m c 1 ⟨n + 1, h⟩) (iblk m c 2 ⟨n + 1, h⟩)) (ix2 p k)).trans ?_
      exact kept_block m c ⟨n + 1, h⟩ p k
    · rw [outsAt0_B m c ⟨n + 1, h⟩ h0]
      dsimp only
      unfold sout0_B_0
      show (outsAt0 m c n _).2 (ix2 p k) = _
      rw [ih (Nat.lt_of_succ_lt h) p k, row_pred n h h0 p]

/-- The second stored value of a kept block that is the scaling of point t's rows, the weight block and the bias block at
    t, at (p, q): the specified function at (row t p, col t q). -/
theorem written_eq (c : Dev nD) (t : Fin cfg0.N) (s : Vec Ideal S1024x4096 .bf16)
    (hs : ∀ (p : Fin 1024) (k : Fin 4096), s (ix2 p k) = NormLinear.dir (m ((c : Thread nD τ).loc main_arg0)) (row t p) k)
    (p : Fin 1024) (q : Fin 512) :
    k0_pay2 (F := Ideal) s (iblk m c 1 t) (iblk m c 2 t) (ix2 p q)
      = NormLinear.out (m ((c : Thread nD τ).loc main_arg0)) (m ((c : Thread nD τ).loc main_arg1)) (m ((c : Thread nD τ).loc main_arg2)) (ix2 (row t p) (col t q)) := by
  refine (Payload.written_apply s (iblk m c 1 t) (iblk m c 2 t) p q).trans ?_
  simp only [NormLinear.out, hs, Blocks.w_block m c t, Blocks.b_block m c t]

/-- Index (p, q) of the output block at t is index (row t p, col t q) of the result. -/
theorem out_emb (t : Fin cfg0.N) (p : Fin 1024) (q : Fin 512) :
    ((cfg0.win 3).blk t).view.emb (ix2 p q) = ix2 (row t p) (col t q) := by
  obtain ⟨-, -, -, -, -, -, e0, e1⟩ := idx_facts t
  funext a
  apply Fin.ext
  match a with
  | ⟨0, _⟩ => show win0_3.index t (0 : Fin 2) * 1024 + 1 * p.val = 1024 * (t.val / 8) + p.val; rw [e0]; omega
  | ⟨1, _⟩ => show win0_3.index t (1 : Fin 2) * 512 + 1 * q.val = 512 * (t.val % 8) + q.val; rw [e1]; omega

/-- WHAT POINT t WRITES BACK is block t of the specified function of the arguments. -/
theorem flushed_eq (c : Dev nD) (t : Fin cfg0.N) :
    (dats m 0 c).flushed 3 t
      = ((cfg0.win 3).blk t).view.read (Elt Ideal) (NormLinear.out (m ((c : Thread nD τ).loc main_arg0)) (m ((c : Thread nD τ).loc main_arg1)) (m ((c : Thread nD τ).loc main_arg2))) := by
  refine funext fun (y : S1024x512.Idx) => ?_
  obtain ⟨p, q, rfl⟩ : ∃ (p : Fin 1024) (q : Fin 512), y = ix2 p q := ⟨y 0, y 1, eq_ix2 y⟩
  by_cases h0 : t.val % 8 = 0
  · rw [Value.flushed3_A m c t h0]
    show out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) (ix2 p q)
      = NormLinear.out (m ((c : Thread nD τ).loc main_arg0)) (m ((c : Thread nD τ).loc main_arg1)) (m ((c : Thread nD τ).loc main_arg2)) (((cfg0.win 3).blk t).view.emb (ix2 p q))
    rw [out_emb t p q]
    refine (congrFun (Pieces.written_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0)
      (iblk m c 0 t) (iblk m c 1 t) (iblk m c 2 t)) (ix2 p q)).trans ?_
    exact written_eq m c t (k0_pay1 (iblk m c 0 t)) (fun p k => kept_block m c t p k) p q
  · have hpos : t.val - 1 + 1 = t.val := by have := lt64 t; omega
    rw [Value.flushed3_B m c t h0]
    show out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
        (outsAt0 m c (t.val - 1) (Nat.lt_of_le_of_lt (Nat.sub_le _ _) t.isLt)).2 (ix2 p q)
      = NormLinear.out (m ((c : Thread nD τ).loc main_arg0)) (m ((c : Thread nD τ).loc main_arg1)) (m ((c : Thread nD τ).loc main_arg2)) (((cfg0.win 3).blk t).view.emb (ix2 p q))
    rw [out_emb t p q]
    refine (congrFun (Pieces.written_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (iblk m c 0 t) (iblk m c 1 t) (iblk m c 2 t)
      (outsAt0 m c (t.val - 1) (Nat.lt_of_le_of_lt (Nat.sub_le _ _) t.isLt)).2) (ix2 p q)).trans ?_
    refine written_eq m c t _ (fun p k => ?_) p q
    refine (kept_eq m c (t.val - 1) (Nat.lt_of_le_of_lt (Nat.sub_le _ _) t.isLt) p k).trans ?_
    refine congrArg (fun r => NormLinear.dir (m ((c : Thread nD τ).loc main_arg0)) r k) ?_
    apply Fin.ext
    show 1024 * ((t.val - 1) / 8) + p.val = 1024 * (t.val / 8) + p.val
    omega

/-- An index of the result is in point t's block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- Every index of the result is in the block of the point 8 (row / 1024) + column / 512. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  have hlt : 8 * ((i 0).val / 1024) + (i 1).val / 512 < cfg0.N := by rw [hN]; omega
  refine ⟨⟨8 * ((i 0).val / 1024) + (i 1).val / 512, hlt⟩, flush0_3 _, ?_⟩
  rw [mem_blk]
  obtain ⟨-, -, -, -, -, -, e0, e1⟩ := idx_facts ⟨8 * ((i 0).val / 1024) + (i 1).val / 512, hlt⟩
  intro a
  match a with
  | ⟨0, _⟩ =>
    show win0_3.index ⟨8 * ((i 0).val / 1024) + (i 1).val / 512, hlt⟩ (0 : Fin 2) * 1024 ≤ (i 0).val
      ∧ (i 0).val < win0_3.index ⟨8 * ((i 0).val / 1024) + (i 1).val / 512, hlt⟩ (0 : Fin 2) * 1024 + 1024
    rw [e0]
    show (8 * ((i 0).val / 1024) + (i 1).val / 512) / 8 * 1024 ≤ (i 0).val
      ∧ (i 0).val < (8 * ((i 0).val / 1024) + (i 1).val / 512) / 8 * 1024 + 1024
    omega
  | ⟨1, _⟩ =>
    show win0_3.index ⟨8 * ((i 0).val / 1024) + (i 1).val / 512, hlt⟩ (1 : Fin 2) * 512 ≤ (i 1).val
      ∧ (i 1).val < win0_3.index ⟨8 * ((i 0).val / 1024) + (i 1).val / 512, hlt⟩ (1 : Fin 2) * 512 + 512
    rw [e1]
    show (8 * ((i 0).val / 1024) + (i 1).val / 512) % 8 * 512 ≤ (i 1).val
      ∧ (i 1).val < (8 * ((i 0).val / 1024) + (i 1).val / 512) % 8 * 512 + 512
    omega

/-- THE RESULT ARRAY after the run is the specified function of the three arguments as launched. -/
theorem final (c : Dev nD) :
    (dats m 0 c).arrAt 3 cfg0.N = NormLinear.out (m ((c : Thread nD τ).loc main_arg0)) (m ((c : Thread nD τ).loc main_arg1)) (m ((c : Thread nD τ).loc main_arg2)) :=
  (dats m 0 c).arrAt_eq_of_cover 3 (NormLinear.out (m ((c : Thread nD τ).loc main_arg0)) (m ((c : Thread nD τ).loc main_arg1)) (m ((c : Thread nD τ).loc main_arg2))) (fun t _ => flushed_eq m c t) covered

/-- The kernel's run: every weakly fair execution terminates with the result array at the specified function of the
    arguments and the arguments unchanged. -/
theorem run : θ_run defs (onTc (τ := τ) (main (F := Ideal))) ⟨m, fun _ => 0, ρ⟩ fun r => ∀ c : Dev nD,
      r.2.mem ((c : Thread nD τ).loc main_v2) = NormLinear.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference computes the specified function.

  Its seventeen host operations, read one at a time at an index: the squares of x summed along each row from zero,
  the square root, the constant added, the row's entries divided by that, one matrix product contracting the second
  axis of both operands, the bias spread over the rows and added, the maximum with zero. The host's quotient,
  square root and row sum are the extended reals' own, and zero added on the left of a sum changes nothing.
-/
import proofs.«127630_j14456859918385_2_alg».proof.Proof.Gen.ReferenceIdeal.Read
import proofs.«127630_j14456859918385_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's scaled x at (r, k): the entry over (the square root of the row's sum of squares, plus the constant). -/
theorem scaled_apply (x0 : (⟨S8192x4096, .f32⟩ : BufTy).Contents (Elt Ideal)) (r : Fin 8192) (k : Fin 4096) :
    val_main_v7 (F := Ideal) x0 (ix2 r k) = NormLinear.dir x0 r k := by
  have e1 : ∀ k' : Fin 4096, idx_main_v1 (idx_main_v2 (idx_main_v6 (ix2 r k))) k' = ix2 r k' := fun k' =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e1, Ideal.hostDivf_def, Ideal.addf_def, Ideal.hostUnary_sqrt_def, Ideal.mulf_def,
    Ideal.ofBits_def, Ideal.ofBits_zero_f32, zero_add, NormLinear.dir, NormLinear.sumSq]

/-- The reference's result is the specified function of its three arguments. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v12 (F := Ideal) x0 x1 x2 = NormLinear.out x0 x1 x2 := by
  funext i
  obtain ⟨r, c, rfl⟩ : ∃ (r : Fin 8192) (c : Fin 4096), i = ix2 r c := ⟨i 0, i 1, eq_ix2 i⟩
  have el : ∀ k : Fin 4096, lidx_main_v8 (ix2 r c) k = ix2 r k := fun k =>
    funext fun a => Fin.ext (by match a with | ⟨0, _⟩ => rfl | ⟨1, _⟩ => rfl)
  have er : ∀ k : Fin 4096, ridx_main_v8 (ix2 r c) k = ix2 c k := fun k =>
    funext fun a => Fin.ext (by match a with | ⟨0, _⟩ => rfl | ⟨1, _⟩ => rfl)
  have eb : idx_main_v9 (idx_main_v10 (ix2 r c)) = ix1 c :=
    funext fun a => Fin.ext (by match a with | ⟨0, _⟩ => rfl)
  rw [val_main_v12_apply, val_main_v11_apply, val_main_v8_apply, val_main_v10_apply, val_main_v9_apply,
    val_main_call0_v0_apply, val_main_call0_cst_apply]
  simp only [el, er, eb, scaled_apply, Ideal.maximumf_def, Ideal.addf_def, Ideal.ofBits_def, Ideal.ofBits_zero_f32,
    NormLinear.out]

end Cert.ReferenceIdeal.RefValue

end
-- ==== Proof.lean ====
/-
  A feed-forward layer: each row of x divided by its Euclidean norm plus a constant, multiplied into the transposed
  weight, the bias added, negatives clamped to zero -- a tiled kernel against the same formula written with whole arrays.

  The kernel walks an 8 by 8 grid of blocks of 1024 rows and 512 columns of the result. It computes the scaled rows
  of x once per block of rows (where the column-block coordinate is zero) and keeps them for the seven points that
  follow; every point multiplies the kept block into its 512 rows of the weight, adds its 512 entries of the bias and
  clamps. On the extended reals, where a change of float format is the identity, the kept block after every point is
  the scaling of that point's rows of x (induction on the point), so each point writes its block of one function of the
  whole arguments (Proof/Spec.lean), and the 64 blocks fill the result (Proof/Whole.lean). The whole-array formula,
  read one operation at a time, is the same function (Proof/RefValue.lean): both sides form the same sum of the same
  products in the same order of factors, the same quotient, square root and maximum, and carry the same word for the
  constant, so no law of arithmetic beyond adding zero on the left of a sum is used and the inputs' finiteness is never
  opened. The three programs' runs terminate without a fault and leave their arguments unchanged; the idealization
  rewrote nothing in the kernel.
-/
import proofs.«127630_j14456859918385_2_alg».proof.Defs
import proofs.«127630_j14456859918385_2_alg».proof.Proof.Gen.Kernel
import proofs.«127630_j14456859918385_2_alg».proof.Proof.Gen.Kernel.Frame
import proofs.«127630_j14456859918385_2_alg».proof.Proof.Gen.KernelIdeal
import proofs.«127630_j14456859918385_2_alg».proof.Proof.Gen.KernelIdeal.Frame
import proofs.«127630_j14456859918385_2_alg».proof.Proof.Gen.KernelIdeal.Value
import proofs.«127630_j14456859918385_2_alg».proof.Proof.Gen.ReferenceIdeal
import proofs.«127630_j14456859918385_2_alg».proof.Proof.Gen.ReferenceIdeal.Run
import proofs.«127630_j14456859918385_2_alg».proof.Proof.Gen.ReferenceIdeal.Read
import proofs.«127630_j14456859918385_2_alg».proof.Proof.Gen.Pre_finite_inputs
import proofs.«127630_j14456859918385_2_alg».proof.Proof.Whole
import proofs.«127630_j14456859918385_2_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the whole-array formula: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on x, the weight and the bias, the kernel's result array and the formula's result both end
    at the specified function of those arguments. -/
theorem algebraic : Cert.algebraic_KernelIdeal_ReferenceIdeal := by
  intro m ρ m' ρ' _ hagree
  refine ⟨fun c => Cert.NormLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
